-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x4096 : Shape := ⟨2, ![512, 4096]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x1024, .f32⟩
  | .local _ .vmem, ⟨9, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 4, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x1024_S2048x1024 : S2048x1024.ShapeCasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .f32 = 32 ∨ (Rect.block (s := S8192x4096) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S8192x4096.size a
  hwx1_2 : ∀ i : grid1.Coords, EltTy.bits .f32 = 32 ∨ (Rect.block (s := S8192x4096) S2048x1024.size (cc1_transform_2 i) (hinb1_2 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_cst_3 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_v11 : Ref sig .tc := ⟨.hbm, 25, rfl⟩
abbrev main_cst_6 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KernelRun.lean ====
/-
  The idealized kernel's run with its result array named.

  The program is two device regions in a row: the first writes the binarized weights, the second multiplies. The
  generated launch proof carries, through both regions, the contents of every buffer that outlives a region; at
  the end the result buffer holds what the second region's write-backs leave in its output array, and the two
  argument buffers hold what they were launched with. Here the same launch is stated with that post: the result
  buffer read at the last boundary, beside the unchanged arguments.
-/
import proofs.«156808_j50861002719489_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the second region finds in the weights' buffer is what the first region's write-backs left there. -/
theorem entry_weights (c : Dev nD) : V1 m ρ c main_v0 = (dat0 (V0 m ρ) c).arrAt 1 cfg0.N :=
  W1_arr m ρ c 1

/-- What the second region finds in the activations' buffer is the launch contents: the first region does not
    touch that buffer. -/
theorem entry_acts (c : Dev nD) : V1 m ρ c main_arg0 = m ((c : Thread nD τ).loc main_arg0) :=
  W1_of_ne m ρ c main_arg0 (by decide)

/-- What the first region finds in the weights' argument buffer is the launch contents. -/
theorem entry_arg_weights (c : Dev nD) : V0 m ρ c main_arg1 = m ((c : Thread nD τ).loc main_arg1) := rfl

set_option backward.isDefEq.respectTransparency.types false in
/-- Every weakly fair execution of the program terminates without a fault, with the result buffer at what the
    second region's write-backs leave in its output array, and both arguments as launched. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c)⟩)

end Cert.KernelIdeal.RunValue

end
-- ==== Proof.BinarizeBlocks.lean ====
/-
  The first region: the weights, binarized entry by entry.

  The region walks the [4096, 4096] weight array in eight blocks of 512 rows. At each point it loads the block,
  applies one elementwise function (elt: divide by 1, add 1, halve, clip to [0, 1], round to even, double,
  subtract 1, multiply by 1, narrow the float format) and stores the result; the output block sits at the same
  rows as the input block. So what the point writes back is the same block of the array obtained by applying elt
  to every weight, and since the eight blocks cover all rows the output array ends as that array.
-/
import proofs.«156808_j50861002719489_2_alg».proof.Proof.Gen.KernelIdeal.Frame
import Idealize.ShloMosaic.Lib.Pipeline.Value

noncomputable section

namespace Cert.KernelIdeal.BinarizeBlocks

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's arithmetic on one weight. -/
def elt (w : F .f32) : F .bf16 :=
  FloatOps.truncf .bf16 bitsLt_bf16_f32
    (FloatOps.mulf
      (FloatOps.subf
        (FloatOps.mulf (Scalar.ofBits .f32 0x40000000#32)
          (FloatOps.roundeven
            (FloatOps.minimumf (Scalar.ofBits .f32 0x3F800000#32)
              (FloatOps.maximumf (Scalar.ofBits .f32 0x00000000#32)
                (FloatOps.mulf
                  (FloatOps.addf (FloatOps.divf w (Scalar.ofBits .f32 0x3F800000#32)) (Scalar.ofBits .f32 0x3F800000#32))
                  (Scalar.ofBits .f32 0x3F000000#32))))))
        (Scalar.ofBits .f32 0x3F800000#32))
      (Scalar.ofBits .f32 0x3F800000#32))

/-- The whole array of binarized weights. -/
def binarized (a : S4096x4096.Idx → Elt F .f32) : S4096x4096.Idx → Elt F .bf16 := fun i => elt (a i)

/-- The body's stored value is elt of the loaded block, entry by entry. -/
theorem pay_apply (x : Vec F S512x4096 .f32) (j : S512x4096.Idx) : k0_pay1 x j = elt (x j) := rfl

/-- The output's block sits where the input's does, and its row block number stays below 8. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 7 ∧ win0_1.index t (1 : Fin 2) = 0 :=
  (by decide +kernel : ∀ t : Fin grid0.N, _)

/-- Every row block is some point's. -/
theorem idx_onto : ∀ q0 : Fin 8, ∃ t : Fin cfg0.N, win0_1.index t = ![q0.val, 0] :=
  (by decide +kernel : ∀ q0 : Fin 8, ∃ t : Fin grid0.N, win0_1.index t = ![q0.val, 0])

/-- What point t writes back is block t of the binarized weights. -/
theorem flushed_eq (c : Dev nD) (t : Fin cfg0.N) :
    (dat0 V c).flushed 1 t = ((cfg0.win 1).blk t).view.read (Elt F) (binarized (V c main_arg1)) := by
  show (cfg0.win 1).cut (grid0.coords t) ((dat0 V c).after 1 t) = _
  rw [after0_1]
  unfold out0_1
  rw [View.canon_unit_zero hz]
  simp only [View.ld_unit_zero (S := S512x4096) hz]
  obtain ⟨e0, e1, e2, e3⟩ := idx_facts t
  funext j
  show k0_pay1 (iblk0 V c 0 t) j = _
  rw [pay_apply]
  show elt (V c main_arg1 (((cfg0.win 0).blk t).view.emb j)) = elt (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the array is in point t's block iff each coordinate is in the block's range on its axis. -/
theorem mem_blk (t : Fin cfg0.N) (i : S4096x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- Every entry of the array is in the block of the point whose row block holds its row. -/
theorem cover (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  obtain ⟨t, ht⟩ := idx_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- After the region the output array holds the binarized weights. -/
theorem final (c : Dev nD) : (dat0 V c).arrAt 1 cfg0.N = binarized (V c main_arg1) :=
  (dat0 V c).arrAt_eq_of_cover 1 (binarized (V c main_arg1)) (fun t _ => flushed_eq V c t) cover

end Cert.KernelIdeal.BinarizeBlocks

end
-- ==== Proof.MatmulBody.lean ====
/-
  The second region's body: one step of a product accumulated over column blocks.

  At a grid point the body holds a [2048, 512] block x of the activations, a [1024, 512] block w of the binarized
  weights and the [2048, 1024] output block. Where the point's position along the contraction axis is 0 it first
  stores zeros in the output block; then, in both cases, it reads the output block acc, and stores
  acc + x · wᵀ, the product contracting the 512 columns of both blocks. So the first point of a run of eight
  leaves 0 + x · wᵀ over zeros (step_first) and every later point acc + x · wᵀ over what the point before left
  (step_next). Over the extended reals entry (p, q) of the stored block is acc(p, q) + ∑ k, x(p, k) · w(q, k)
  (step_apply): narrowing a float format changes nothing there and the product unit's accumulator starts at 0.
-/
import proofs.«156808_j50861002719489_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.MatmulBody

open Cert.KernelIdeal Cert.KernelIdeal.Gen
open Idealize.ShloMosaic Idealize.ShloMosaic.TcCoe Idealize.SL.Sem
open Idealize.ShloMosaic.ValueIdx

variable {F : FTy → Type} [FloatOps F]

theorem hz : (![0, 0] : Fin 2 → Nat) = fun _ => 0 := funext fun a => by fin_cases a <;> rfl

/-- A later point of a run (the zeroing branch not taken): over the block acc that the point before left, the body
    leaves its one covering store's value, acc + x · wᵀ. -/
theorem step_next (c : Dev nD) (i : grid1.Coords) (a3 : Memref sig .tc .vmem S2048x512 .f32) (h3 : a3.IsWhole)
    (a4 : Memref sig .tc .vmem S1024x512 .bf16) (h4 : a4.IsWhole) (a5 : Memref sig .tc .vmem S2048x1024 .f32) (h5 : a5.IsWhole)
    (hc : ¬cond1_0 i) (x0 : Vec F S2048x512 .f32) (x1 : Vec F S1024x512 .bf16) (xo : Vec F S2048x1024 .f32) :
    out1_B_2 c i a3 h3 a4 h4 a5 h5 hc x0 x1 xo = k1_pay2 x0 x1 xo := by
  unfold out1_B_2
  rw [View.read_writes_eq_canon _ _ _ (cover1_B_2 c i a3 h3 a4 h4 a5 h5 hc x0 x1 xo)]
  unfold kernelRun1_B
  dsimp only
  rw [View.canon_unit_zero hz]
  simp only [View.readAt_eq_ld, h3.read_unread, h4.read_unread, h5.read_unread,
    View.ld_unit_zero (S := S2048x512) hz, View.ld_unit_zero (S := S1024x512) hz, View.ld_unit_zero (S := S2048x1024) hz]

/-- The first point of a run (the zeroing branch taken): the body stores zeros, reads them back, and leaves
    zeros + x · wᵀ. -/
theorem step_first (c : Dev nD) (i : grid1.Coords) (a3 : Memref sig .tc .vmem S2048x512 .f32) (h3 : a3.IsWhole)
    (a4 : Memref sig .tc .vmem S1024x512 .bf16) (h4 : a4.IsWhole) (a5 : Memref sig .tc .vmem S2048x1024 .f32) (h5 : a5.IsWhole)
    (hc : cond1_0 i) (x0 : Vec F S2048x512 .f32) (x1 : Vec F S1024x512 .bf16) :
    out1_A_2 c i a3 h3 a4 h4 a5 h5 hc x0 x1 = k1_pay2 x0 x1 (k1_pay1 (F := F)) := by
  unfold out1_A_2
  rw [View.read_writes_eq_canon _ _ _ (cover1_A_2 c i a3 h3 a4 h4 a5 h5 hc x0 x1)]
  unfold kernelRun1_A
  dsimp only
  sl_unfold_words
  rw [View.canon_cons_unit_zero (S := S2048x1024) hz, View.readCov_unit_zero (S := S2048x1024) _ hz]
  simp only [View.readAt_eq_ld, h3.read_unread, h4.read_unread,
    View.ld_unit_zero (S := S2048x512) hz, View.ld_unit_zero (S := S1024x512) hz, View.ld_unit_zero (S := S2048x1024) hz]

/-! ## The stored value at an entry, over the extended reals -/

theorem lhs0 (j : S2048x1024.Idx) (k : dot_S2048x512_S1024x512_S2048x1024_1_1_0_0_n_n.contr.Idx) : (dot_S2048x512_S1024x512_S2048x1024_1_1_0_0_n_n.lhsIdx j k 0).val = (j 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs1 (j : S2048x1024.Idx) (k : dot_S2048x512_S1024x512_S2048x1024_1_1_0_0_n_n.contr.Idx) : (dot_S2048x512_S1024x512_S2048x1024_1_1_0_0_n_n.lhsIdx j k 1).val = (k ⟨0, by decide⟩).val :=
  dot_S2048x512_S1024x512_S2048x1024_1_1_0_0_n_n.lhsIdx_val_of_single rfl j k
theorem rhs0 (j : S2048x1024.Idx) (k : dot_S2048x512_S1024x512_S2048x1024_1_1_0_0_n_n.contr.Idx) : (dot_S2048x512_S1024x512_S2048x1024_1_1_0_0_n_n.rhsIdx j k 0).val = (j 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs1 (j : S2048x1024.Idx) (k : dot_S2048x512_S1024x512_S2048x1024_1_1_0_0_n_n.contr.Idx) : (dot_S2048x512_S1024x512_S2048x1024_1_1_0_0_n_n.rhsIdx j k 1).val = (k ⟨0, by decide⟩).val :=
  dot_S2048x512_S1024x512_S2048x1024_1_1_0_0_n_n.rhsIdx_val_of_single rfl j k

/-- Entry (p, q) of the stored block: the accumulator's entry plus the sum over the 512 columns of the products of
    row p of x and row q of w. -/
theorem step_apply (x0 : Vec Ideal S2048x512 .f32) (x1 : Vec Ideal S1024x512 .bf16) (xo : Vec Ideal S2048x1024 .f32)
    (p : Fin 2048) (q : Fin 1024) :
    k1_pay2 x0 x1 xo (ix2 p q) = xo (ix2 p q) + ∑ k : Fin 512, x0 (ix2 p k) * x1 (ix2 q k) := by
  unfold k1_pay2
  show FloatOps.addf (shapeCast S2048x1024 xo shapeCasts_S2048x1024_S2048x1024 (ix2 p q))
      (FloatOps.matmul dot_S2048x512_S1024x512_S2048x1024_1_1_0_0_n_n none (truncf .bf16 x0 bitsLt_bf16_f32) (shapeCast S1024x512 x1 shapeCasts_S1024x512_S1024x512)
        (constant (F := Ideal) S2048x1024 .f32 0x00000000#32) (ix2 p q)) = _
  rw [shapeCast_self, shapeCast_self, Ideal.matmul_constant_zero_apply,
    ← Equiv.sum_comp (ValueIdx.contrEquiv1 dot_S2048x512_S1024x512_S2048x1024_1_1_0_0_n_n 512 rfl rfl).symm, Ideal.addf_def]
  refine congrArg (xo (ix2 p q) + ·) (Finset.sum_congr rfl fun k _ => ?_)
  have hk := ValueIdx.contrEquiv1_symm_val dot_S2048x512_S1024x512_S2048x1024_1_1_0_0_n_n 512 rfl rfl k
  have el : dot_S2048x512_S1024x512_S2048x1024_1_1_0_0_n_n.lhsIdx (ix2 p q) ((ValueIdx.contrEquiv1 dot_S2048x512_S1024x512_S2048x1024_1_1_0_0_n_n 512 rfl rfl).symm k) = ix2 p k := funext fun a => Fin.ext (by
    match a with
    | ⟨0, _⟩ => exact lhs0 _ _
    | ⟨1, _⟩ => exact (lhs1 _ _).trans hk)
  have er : dot_S2048x512_S1024x512_S2048x1024_1_1_0_0_n_n.rhsIdx (ix2 p q) ((ValueIdx.contrEquiv1 dot_S2048x512_S1024x512_S2048x1024_1_1_0_0_n_n 512 rfl rfl).symm k) = ix2 q k := funext fun a => Fin.ext (by
    match a with
    | ⟨0, _⟩ => exact rhs0 _ _
    | ⟨1, _⟩ => exact (rhs1 _ _).trans hk)
  rw [el, er]
  rfl

/-- The zeros the first point stores are the extended real 0 at every entry. -/
theorem zeros_apply (j : S2048x1024.Idx) : k1_pay1 (F := Ideal) j = 0 := by
  show Ideal.ofBits .f32 0x00000000#32 = 0
  exact Ideal.ofBits_zero_f32

end Cert.KernelIdeal.MatmulBody

end
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.MatmulAccumulate.lean ====
/-
  The second region: a [8192, 4096] × [4096, 4096]ᵀ product accumulated over eight column blocks.

  The grid has 4 × 4 × 8 points; point t = 32 i + 8 j + k works on row block i of the activations A (2048 rows),
  row block j of the binarized weights B (1024 rows) and column block k (512 columns) of both. The output block
  (i, j) stays in place over the eight points of a run k = 0 .. 7: the first zeroes it, each adds its partial
  product, and the block is written back after the eighth. By induction along the grid the block holds, after
  point t, the partial products of column blocks 0 .. t mod 8 summed (held_eq); after the last point of a run
  that is the sum over all eight blocks, which is the sum over all 4096 columns (BlockSum.sum_range_blocks:
  addition of extended reals is commutative and associative, so regrouping asks nothing of the entries). Every
  entry of the result lies in the block of exactly such a last point, so the output array ends as the whole
  product A · Bᵀ, entry (r, o) = ∑ k, A(r, k) · B(o, k).
-/
import proofs.«156808_j50861002719489_2_alg».proof.Proof.MatmulBody
import proofs.«156808_j50861002719489_2_alg».proof.Proof.LibBlockSum

noncomputable section

namespace Cert.KernelIdeal.MatmulAccumulate

open Cert.KernelIdeal Cert.KernelIdeal.Gen Cert.KernelIdeal.MatmulBody
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The specification -/

/-- The product A · Bᵀ: entry (r, o) is the sum over the 4096 columns of A(r, k) · B(o, k). -/
def prodT (A : S8192x4096.Idx → EReal) (B : S4096x4096.Idx → EReal) : S8192x4096.Idx → EReal :=
  fun i => ∑ k : Fin 4096, A (ix2 (i 0) k) * B (ix2 (i 1) k)

/-- Row p of row block I of the activations (I is read modulo 4, so that the row exists for every natural I). -/
def actRow (I : ℕ) (p : Fin 2048) : Fin 8192 := ⟨I % 4 * 2048 + p.val, by have := p.isLt; omega⟩
/-- Row q of row block J of the weights. -/
def wtRow (J : ℕ) (q : Fin 1024) : Fin 4096 := ⟨J % 4 * 1024 + q.val, by have := q.isLt; omega⟩
/-- Column k of column block b (wrapped around 4096, so that it exists for every natural b). -/
def col (b : ℕ) (k : Fin 512) : Fin 4096 := BlockSum.pos 8 512 (by norm_num) b k

/-- The partial product of column block b at entry (p, q) of output block (I, J). -/
def blockTerm (A : S8192x4096.Idx → EReal) (B : S4096x4096.Idx → EReal) (I J b : ℕ) (p : Fin 2048) (q : Fin 1024) : EReal :=
  ∑ k : Fin 512, A (ix2 (actRow I p) (col b k)) * B (ix2 (wtRow J q) (col b k))

/-- All eight partial products together are the entry of the whole product. -/
theorem sum_blockTerm (A : S8192x4096.Idx → EReal) (B : S4096x4096.Idx → EReal) (I J : ℕ) (p : Fin 2048) (q : Fin 1024) :
    ∑ b ∈ Finset.range 8, blockTerm A B I J b p q = ∑ k : Fin 4096, A (ix2 (actRow I p) k) * B (ix2 (wtRow J q) k) :=
  BlockSum.sum_range_blocks 8 512 (by norm_num) fun k : Fin (8 * 512) => A (ix2 (actRow I p) k) * B (ix2 (wtRow J q) k)

/-! ## Where the blocks sit -/

/-- The printed index maps over the grid: point t is row block t / 32 of the activations, row block t / 8 mod 4 of
    the weights, column block t mod 8 of both, and output block (t / 32, t / 8 mod 4). -/
theorem idx_facts : ∀ t : Fin cfg1.N,
    win1_0.index t (0 : Fin 2) = t.val / 32 % 4 ∧ win1_0.index t (1 : Fin 2) = t.val % 8
    ∧ win1_1.index t (0 : Fin 2) = t.val / 8 % 4 ∧ win1_1.index t (1 : Fin 2) = t.val % 8
    ∧ win1_2.index t (0 : Fin 2) = t.val / 32 % 4 ∧ win1_2.index t (1 : Fin 2) = t.val / 8 % 4 :=
  (by decide +kernel : ∀ t : Fin grid1.N, _)

/-- Every output block is written back by the last point of some run. -/
theorem idx_onto : ∀ (q0 q1 : Fin 4), ∃ t : Fin cfg1.N, t.val % 8 = 7 ∧ win1_2.index t = ![q0.val, q1.val] :=
  (by decide +kernel : ∀ (q0 q1 : Fin 4), ∃ t : Fin grid1.N, t.val % 8 = 7 ∧ win1_2.index t = ![q0.val, q1.val])

/-- The activations' block at point t, entry (p, k): row p of row block t / 32, column k of column block t mod 8. -/
theorem acts_block (c : Dev nD) (t : Fin cfg1.N) (p : Fin 2048) (k : Fin 512) :
    iblk1 V c 0 t (ix2 p k) = V c main_arg0 (ix2 (actRow (t.val / 32) p) (col (t.val % 8) k)) := by
  obtain ⟨e0, e1, -, -, -, -⟩ := idx_facts t
  unfold iblk1
  rw [View.read_apply]
  show V c main_arg0 (((cfg1.win 0).blk t).view.emb (ix2 p k)) = _
  refine congrArg (V c main_arg0) (funext fun a => Fin.ext ?_)
  match a with
  | ⟨0, _⟩ =>
    show win1_0.index t (0 : Fin 2) * 2048 + 1 * p.val = t.val / 32 % 4 * 2048 + p.val
    rw [e0]; omega
  | ⟨1, _⟩ =>
    show win1_0.index t (1 : Fin 2) * 512 + 1 * k.val = (t.val % 8 * 512 + k.val) % (8 * 512)
    have := k.isLt; rw [e1]; omega

/-- The weights' block at point t, entry (q, k): row q of row block t / 8 mod 4, column k of column block t mod 8. -/
theorem wts_block (c : Dev nD) (t : Fin cfg1.N) (q : Fin 1024) (k : Fin 512) :
    iblk1 V c 1 t (ix2 q k) = V c main_v0 (ix2 (wtRow (t.val / 8) q) (col (t.val % 8) k)) := by
  obtain ⟨-, -, e2, e3, -, -⟩ := idx_facts t
  unfold iblk1
  rw [View.read_apply]
  show V c main_v0 (((cfg1.win 1).blk t).view.emb (ix2 q k)) = _
  refine congrArg (V c main_v0) (funext fun a => Fin.ext ?_)
  match a with
  | ⟨0, _⟩ =>
    show win1_1.index t (0 : Fin 2) * 1024 + 1 * q.val = t.val / 8 % 4 * 1024 + q.val
    rw [e2]; omega
  | ⟨1, _⟩ =>
    show win1_1.index t (1 : Fin 2) * 512 + 1 * k.val = (t.val % 8 * 512 + k.val) % (8 * 512)
    have := k.isLt; rw [e3]; omega

/-- A partial product over blocks x and w whose entries are known: when row p of x reads row (I, p) of A and row q
    of w reads row (J, q) of B, both at column block b, the sum of their products over the 512 columns is the
    partial product of column block b for output block (I, J). -/
theorem added_eq (x0 : Vec Ideal S2048x512 .f32) (x1 : Vec Ideal S1024x512 .bf16)
    (A : S8192x4096.Idx → EReal) (B : S4096x4096.Idx → EReal) (I J b : ℕ) (p : Fin 2048) (q : Fin 1024)
    (h0 : ∀ k : Fin 512, x0 (ix2 p k) = A (ix2 (actRow I p) (col b k)))
    (h1 : ∀ k : Fin 512, x1 (ix2 q k) = B (ix2 (wtRow J q) (col b k))) :
    ∑ k : Fin 512, x0 (ix2 p k) * x1 (ix2 q k) = blockTerm A B I J b p q :=
  Finset.sum_congr rfl fun k _ => by rw [h0 k, h1 k]

/-! ## The running block -/

/-- After point n the output block holds, at entry (p, q), the partial products of column blocks 0 .. n mod 8 of
    output block (n / 32, n / 8), summed. -/
theorem held_eq (c : Dev nD) : ∀ (n : ℕ) (h : n < cfg1.N) (p : Fin 2048) (q : Fin 1024),
    outsAt1 V c n h (ix2 p q)
      = ∑ b ∈ Finset.range (n % 8 + 1), blockTerm (V c main_arg0) (V c main_v0) (n / 32) (n / 8) b p q := by
  intro n
  induction n using Nat.strong_induction_on with
  | _ n ih =>
    intro h p q
    by_cases h0 : n % 8 = 0
    · have e := outsAt1_A V c ⟨n, h⟩ h0
      rw [show outsAt1 V c n h = _ from e,
        step_first c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩)
          ((hcond1_0 ⟨n, h⟩).mpr h0) (iblk1 V c 0 ⟨n, h⟩) (iblk1 V c 1 ⟨n, h⟩),
        step_apply (iblk1 V c 0 ⟨n, h⟩) (iblk1 V c 1 ⟨n, h⟩) (k1_pay1 (F := Ideal)) p q,
        zeros_apply, zero_add, added_eq (iblk1 V c 0 ⟨n, h⟩) (iblk1 V c 1 ⟨n, h⟩) (V c main_arg0) (V c main_v0) (n / 32) (n / 8) (n % 8) p q
          (acts_block V c ⟨n, h⟩ p) (wts_block V c ⟨n, h⟩ q), h0]
      show _ = ∑ b ∈ Finset.range 1, _
      rw [Finset.range_one, Finset.sum_singleton]
    · have e := outsAt1_B V c ⟨n, h⟩ h0
      have hprev : n - 1 < n := by omega
      have hI : (n - 1) / 32 = n / 32 := by omega
      have hJ : (n - 1) / 8 = n / 8 := by omega
      have hK : (n - 1) % 8 + 1 = n % 8 := by omega
      rw [show outsAt1 V c n h = _ from e,
        step_next c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩)
          (fun hh => h0 ((hcond1_0 ⟨n, h⟩).mp hh)) (iblk1 V c 0 ⟨n, h⟩) (iblk1 V c 1 ⟨n, h⟩)
          (outsAt1 V c (n - 1) (Nat.lt_of_le_of_lt (Nat.sub_le _ _) h)),
        step_apply (iblk1 V c 0 ⟨n, h⟩) (iblk1 V c 1 ⟨n, h⟩) (outsAt1 V c (n - 1) (Nat.lt_of_le_of_lt (Nat.sub_le _ _) h)) p q,
        ih (n - 1) hprev (Nat.lt_of_le_of_lt (Nat.sub_le _ _) h) p q, added_eq (iblk1 V c 0 ⟨n, h⟩) (iblk1 V c 1 ⟨n, h⟩) (V c main_arg0) (V c main_v0) (n / 32) (n / 8) (n % 8) p q
          (acts_block V c ⟨n, h⟩ p) (wts_block V c ⟨n, h⟩ q), hI, hJ, hK,
        Finset.sum_range_succ]

/-! ## The write-backs and the array -/

/-- What the last point of a run writes back is its block of the whole product. -/
theorem flushed_eq (c : Dev nD) (t : Fin cfg1.N) (hf : (cfg1.win 2).flush t = true) :
    (dat1 V c).flushed 2 t = ((cfg1.win 2).blk t).view.read (Elt Ideal) (prodT (V c main_arg0) (V c main_v0)) := by
  have h7 : t.val % 8 = 7 := (flush1_2 t).mp hf
  obtain ⟨-, -, -, -, e4, e5⟩ := idx_facts t
  show (cfg1.win 2).cut (grid1.coords t) ((dat1 V c).after 2 t) = _
  rw [after1_2]
  funext j
  obtain ⟨p, q, rfl⟩ : ∃ (p : Fin 2048) (q : Fin 1024), j = ix2 p q := ⟨j 0, j 1, eq_ix2 j⟩
  show outsAt1 V c t.val t.isLt (ix2 p q) = prodT (V c main_arg0) (V c main_v0) (((cfg1.win 2).blk t).view.emb (ix2 p q))
  rw [held_eq V c t.val t.isLt p q, h7, sum_blockTerm]
  unfold prodT
  have r0 : (((cfg1.win 2).blk t).view.emb (ix2 p q)) 0 = actRow (t.val / 32) p := Fin.ext (by
    show win1_2.index t (0 : Fin 2) * 2048 + 1 * p.val = t.val / 32 % 4 * 2048 + p.val
    rw [e4]; omega)
  have r1 : (((cfg1.win 2).blk t).view.emb (ix2 p q)) 1 = wtRow (t.val / 8) q := Fin.ext (by
    show win1_2.index t (1 : Fin 2) * 1024 + 1 * q.val = t.val / 8 % 4 * 1024 + q.val
    rw [e5]; omega)
  rw [r0, r1]

/-- An index of the array is in point t's block iff each coordinate is in the block's range on its axis. -/
theorem mem_blk (t : Fin cfg1.N) (i : S8192x4096.Idx) :
    i ∈ ((cfg1.win 2).blk t).view.set ↔ ∀ a : Fin 2, win1_2.index t a * S2048x1024.size a ≤ (i a).val ∧ (i a).val < win1_2.index t a * S2048x1024.size a + S2048x1024.size a := by
  show i ∈ ((View.whole main_v1).slice (win1_2.rect t)).set ↔ _
  rw [View.set_slice_whole, Rect.mem_set_unit]
  exact Iff.rfl

/-- Every entry of the result lies in the block written back by the last point of the run of its output block. -/
theorem cover (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, h7, ht⟩ := idx_onto ⟨(i 0).val / 2048, by omega⟩ ⟨(i 1).val / 1024, by omega⟩
  have q0 : win1_2.index t (0 : Fin 2) = (i 0).val / 2048 := congrFun ht 0
  have q1 : win1_2.index t (1 : Fin 2) = (i 1).val / 1024 := congrFun ht 1
  refine ⟨t, (flush1_2 t).mpr h7, ?_⟩
  rw [mem_blk]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 1024 ≤ (i 1).val ∧ (i 1).val < win1_2.index t (1 : Fin 2) * 1024 + 1024; omega

/-- After the region the output array holds the whole product of the arrays the region found. -/
theorem final (c : Dev nD) : (dat1 V c).arrAt 2 cfg1.N = prodT (V c main_arg0) (V c main_v0) :=
  (dat1 V c).arrAt_eq_of_cover 2 (prodT (V c main_arg0) (V c main_v0)) (flushed_eq V c) cover

end Cert.KernelIdeal.MatmulAccumulate

end
-- ==== Proof.BinarizeLaw.lean ====
/-
  The weight binarization on the extended reals, and the one law that joins its two spellings.

  Both programs send a weight w to (2 · round(clip((w / 1 + 1) · ½, 0, 1)) − 1) · 1, rounding to the nearest
  integer with ties to even. One program halves by multiplying with the float ½, the other by dividing by the
  float 2. The patterns 0x3F000000 and 0x40000000 denote exactly ½ and 2, and on the extended reals a quotient
  by a nonzero real IS the product with its inverse at every argument, the two infinities included; so the two
  spellings are one function and nothing is asked of w.
-/
import Idealize.ShloMosaic.PureOps.Ideal
import Idealize.ShloMosaic.Lib.ValueIdx

noncomputable section

namespace Binarize

open Idealize.ShloMosaic

/-- The float pattern of 0.5 denotes the real ½. -/
theorem half_eq : Ideal.ofBits .f32 0x3F000000#32 = ((1 / 2 : ℝ) : EReal) := by
  simp [Ideal.ofBits, Ideal.ieee, -EReal.coe_mul]; norm_num

/-- The float pattern of 2.0 denotes the real 2. -/
theorem two_eq : Ideal.ofBits .f32 0x40000000#32 = ((2 : ℝ) : EReal) := by
  simp [Ideal.ofBits, Ideal.ieee, -EReal.coe_mul]; norm_num

/-- Dividing by the float 2 is multiplying by the float ½, at every extended real. -/
theorem div_two (y : EReal) :
    Ideal.div y (Ideal.ofBits .f32 0x40000000#32) = y * Ideal.ofBits .f32 0x3F000000#32 := by
  rw [two_eq, half_eq, Ideal.div_coe (by norm_num : (2 : ℝ) ≠ 0)]

/-- The binarized weight: w ↦ (2 · round(min 1 (max 0 ((w / 1 + 1) · ½))) − 1) · 1, ties to even. -/
def bin (w : EReal) : EReal :=
  (Ideal.ofBits .f32 0x40000000#32 * Ideal.liftRound Ideal.roundHalfEven
      (min (Ideal.ofBits .f32 0x3F800000#32) (max (Ideal.ofBits .f32 0x00000000#32)
        ((Ideal.div w (Ideal.ofBits .f32 0x3F800000#32) + Ideal.ofBits .f32 0x3F800000#32)
          * Ideal.ofBits .f32 0x3F000000#32)))
    - Ideal.ofBits .f32 0x3F800000#32) * Ideal.ofBits .f32 0x3F800000#32

/-- The same weight with the halving spelt as a quotient by 2. -/
theorem bin_of_quotient (w : EReal) :
    (Ideal.ofBits .f32 0x40000000#32 * Ideal.liftRound Ideal.roundHalfEven
        (min (Ideal.ofBits .f32 0x3F800000#32) (max (Ideal.ofBits .f32 0x00000000#32)
          (Ideal.div (Ideal.div w (Ideal.ofBits .f32 0x3F800000#32) + Ideal.ofBits .f32 0x3F800000#32)
            (Ideal.ofBits .f32 0x40000000#32))))
      - Ideal.ofBits .f32 0x3F800000#32) * Ideal.ofBits .f32 0x3F800000#32 = bin w := by
  unfold bin; rw [div_two]

/-- The specification of the whole computation: activations x [8192, 4096] against weights w [4096, 4096], the
    weights binarized and both contracted along their 4096 columns; entry (r, o) is ∑ k, x(r, k) · bin(w(o, k)). -/
def dense (x : (⟨2, ![8192, 4096]⟩ : Shape).Idx → EReal) (w : (⟨2, ![4096, 4096]⟩ : Shape).Idx → EReal) :
    (⟨2, ![8192, 4096]⟩ : Shape).Idx → EReal :=
  fun i => ∑ k : Fin 4096, x (ValueIdx.ix2 (i 0) k) * bin (w (ValueIdx.ix2 (i 1) k))

end Binarize

end
-- ==== Proof.KernelValue.lean ====
/-
  The idealized kernel's result as one function of its two arguments.

  The first region leaves the binarized weights (every weight through the body's elementwise function, which over
  the extended reals is Binarize.bin: narrowing the float format changes nothing there). The second region finds
  the activations as launched and those binarized weights, and leaves their product contracted along the 4096
  columns. Composed: entry (r, o) of the result is ∑ k, x(r, k) · bin(w(o, k)), the specification Binarize.dense.
-/
import proofs.«156808_j50861002719489_2_alg».proof.Proof.KernelRun
import proofs.«156808_j50861002719489_2_alg».proof.Proof.BinarizeBlocks
import proofs.«156808_j50861002719489_2_alg».proof.Proof.MatmulAccumulate
import proofs.«156808_j50861002719489_2_alg».proof.Proof.BinarizeLaw

noncomputable section

namespace Cert.KernelIdeal.KernelValue

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- Over the extended reals the body's arithmetic on one weight is the binarization. -/
theorem elt_eq (w : EReal) : BinarizeBlocks.elt (F := Ideal) w = Binarize.bin w := rfl

/-- The product of an array with the binarized weights is the specification. -/
theorem prodT_binarized (x : S8192x4096.Idx → EReal) (w : S4096x4096.Idx → EReal) :
    MatmulAccumulate.prodT x (BinarizeBlocks.binarized (F := Ideal) w) = Binarize.dense x w := by
  funext i
  unfold MatmulAccumulate.prodT Binarize.dense BinarizeBlocks.binarized
  exact Finset.sum_congr rfl fun k _ => by rw [elt_eq]

/-- What the second region's write-backs leave in the result array, as a function of the launch contents. -/
theorem result_eq (c : Dev nD) :
    (dat1 (V1 m ρ) c).arrAt 2 cfg1.N
      = Binarize.dense (m ((c : Thread nD τ).loc main_arg0)) (m ((c : Thread nD τ).loc main_arg1)) := by
  rw [MatmulAccumulate.final (V1 m ρ) c, RunValue.entry_acts m ρ c, RunValue.entry_weights m ρ c,
    BinarizeBlocks.final (V0 m ρ) c, RunValue.entry_arg_weights m ρ c]
  exact prodT_binarized _ _

/-- Every weakly fair execution of the idealized kernel terminates without a fault, its result array at the
    specification of the two arguments as launched, and the arguments unchanged. -/
theorem run : θ_run defs (onTc (τ := τ) (main (F := Ideal))) ⟨m, fun _ => 0, ρ⟩ (fun r => ∀ c : Dev nD,
      r.2.mem ((c.tc : Thread nD τ).loc main_v1)
        = Binarize.dense (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (RunValue.run_named m ρ)

end Cert.KernelIdeal.KernelValue

end
-- ==== Proof.ReferenceValue.lean ====
/-
  The reference, entry by entry.

  The reference binarizes the weights on the host, w ↦ (2 · round(clip((w / 1 + 1) / 2, 0, 1)) − 1) · 1, and takes
  one product contracting the 4096 columns of the activations x and of the binarized weights. Read one operation
  at a time its weights operand is Binarize.bin of the weight at every entry (the quotient by 2 being the product
  with ½), and entry (r, o) of its result is ∑ k, x(r, k) · bin(w(o, k)).
-/
import proofs.«156808_j50861002719489_2_alg».proof.Proof.Gen.ReferenceIdeal.Read
import proofs.«156808_j50861002719489_2_alg».proof.Proof.BinarizeLaw

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx

/-- The reference's weights operand at an entry is the binarized weight. -/
theorem weights_apply (x1 : S4096x4096.Idx → EReal) (i : S4096x4096.Idx) :
    val_main_v13 (F := Ideal) x1 i = Binarize.bin (x1 i) := by
  rw [val_main_v13_apply, val_main_v11_apply, val_main_v9_apply, val_main_v7_apply, val_main_v6_apply,
    val_main_call0_v2_apply, val_main_v5_apply, val_main_v3_apply, val_main_v1_apply,
    val_main_v12_apply, val_main_v10_apply, val_main_v8_apply, val_main_v4_apply, val_main_v2_apply, val_main_v0_apply,
    val_main_call0_v4_apply, val_main_call0_v1_apply, val_main_call0_v3_apply, val_main_call0_v0_apply,
    val_main_cst_apply, val_main_cst_0_apply, val_main_cst_1_apply, val_main_cst_2_apply, val_main_cst_3_apply,
    val_main_cst_4_apply, val_main_cst_5_apply, val_main_cst_6_apply]
  simp only [Ideal.mulf_def, Ideal.subf_def, Ideal.addf_def, Ideal.hostDivf_def, Ideal.maximumf_def, Ideal.minimumf_def,
    Ideal.hostUnary_roundeven_def, Ideal.ofBits_def]
  exact Binarize.bin_of_quotient (x1 i)

/-- The reference's result: entry (r, o) is the sum over the 4096 columns of x(r, k) · bin(w(o, k)). -/
theorem result_eq (x0 : S8192x4096.Idx → EReal) (x1 : S4096x4096.Idx → EReal) :
    val_main_v14 (F := Ideal) x0 x1 = Binarize.dense x0 x1 := by
  funext i
  rw [val_main_v14_apply]
  unfold Binarize.dense
  refine Finset.sum_congr rfl fun k _ => ?_
  have el : lidx_main_v14 i k = ix2 (i 0) k := funext fun a => by
    match a with
    | ⟨0, _⟩ => rfl
    | ⟨1, _⟩ => rfl
  have er : ridx_main_v14 i k = ix2 (i 1) k := funext fun a => by
    match a with
    | ⟨0, _⟩ => rfl
    | ⟨1, _⟩ => rfl
  rw [weights_apply, el, er]
  rfl

end Cert.ReferenceIdeal.RefValue

end
-- ==== Proof.lean ====
/-
  A dense layer with binarized weights: out = x · bin(w)ᵀ for x [8192, 4096] and w [4096, 4096], where
  bin(w) = (2 · round(clip((w / 1 + 1) / 2, 0, 1)) − 1) · 1 with ties rounded to even.

  The kernel computes it in two device regions: an elementwise pass that binarizes the weights block by block
  (halving by a product with ½), then a product tiled 4 × 4 over the output and accumulated over eight blocks of
  512 columns into an output block that is zeroed at the first block and written back after the last. The
  reference binarizes on the host (halving by a quotient by 2) and takes one product over all 4096 columns.

  Over the extended reals the two are one function. The quotient by 2 is the product with ½ at every extended
  real; the two roundings are the same function; narrowing a float format is the identity; and the sum over 4096
  columns regrouped into eight blocks taken one after the other from 0 is the same sum, because addition of
  extended reals is commutative and associative. None of this needs the inputs to be finite.

  Frames: both kernel programs by their generated frames; the reference's is its run with the result dropped.
  The idealization rewrote nothing, so its statement is trivial.
-/
import proofs.«156808_j50861002719489_2_alg».proof.Defs
import proofs.«156808_j50861002719489_2_alg».proof.Proof.Gen.Kernel
import proofs.«156808_j50861002719489_2_alg».proof.Proof.Gen.Kernel.Frame
import proofs.«156808_j50861002719489_2_alg».proof.Proof.Gen.KernelIdeal
import proofs.«156808_j50861002719489_2_alg».proof.Proof.Gen.KernelIdeal.Frame
import proofs.«156808_j50861002719489_2_alg».proof.Proof.Gen.ReferenceIdeal
import proofs.«156808_j50861002719489_2_alg».proof.Proof.Gen.ReferenceIdeal.Run
import proofs.«156808_j50861002719489_2_alg».proof.Proof.Gen.ReferenceIdeal.Read
import proofs.«156808_j50861002719489_2_alg».proof.Proof.Gen.Pre_finite_inputs
import proofs.«156808_j50861002719489_2_alg».proof.Proof.KernelValue
import proofs.«156808_j50861002719489_2_alg».proof.Proof.ReferenceValue

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the two arguments both programs end with the result array at the specification
    Binarize.dense of the arguments: the kernel by its two regions composed, the reference by its operations read
    one at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v14_eq, Cert.ReferenceIdeal.RefValue.result_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
